-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512x1 : Shape := ⟨2, ![512, 1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S32768x512 .f32) (main_arg1 : FVec F S512x512 .f32) (main_arg2 : FVec F S512x1 .f32) (main_arg3 : FVec F S_ .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x1 .f32 := Host.absf main_arg2
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S32768x512 : Shape := ⟨2, ![32768, 512]⟩
abbrev S512x512 : Shape := ⟨2, ![512, 512]⟩
abbrev S512x1 : Shape := ⟨2, ![512, 1]⟩
abbrev S_ : Shape := ⟨0, ![]⟩
abbrev S4096x512 : Shape := ⟨2, ![4096, 512]⟩

abbrev nBuf : Space → Nat
  | .hbm => 29
  | .vmem => 5
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S_, .f32⟩
  | .hbm, ⟨16, _⟩ => ⟨S512x512, .f32⟩
  | .hbm, ⟨17, _⟩ => ⟨S512x512, .i1⟩
  | .hbm, ⟨18, _⟩ => ⟨S_, .f32⟩
  | .hbm, ⟨19, _⟩ => ⟨S_, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .bf16⟩
  | .hbm, ⟨28, _⟩ => ⟨S32768x512, .f32⟩
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S4096x512, .f32⟩
  | .local _ .vmem, ⟨4, _⟩ => ⟨S4096x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512x1_S512x512_0_1 : S512x1.BroadcastsInDim S512x512 (![0, 1] : Fin 2 → Fin S512x512.rank)
  bcast_S_S512x512 : S_.BroadcastsInDim S512x512 (![] : Fin 0 → Fin S512x512.rank)
  transposes_S512x512_S512x512_1_0 : S512x512.Transposes [1, 0] S512x512
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S32768x512.size a
  hwx0_0 : ∀ i : grid0.Coords, EltTy.bits .f32 = 32 ∨ (Rect.block (s := S32768x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S32768x512.size a
  hwx0_2 : ∀ i : grid0.Coords, EltTy.bits .f32 = 32 ∨ (Rect.block (s := S32768x512) S4096x512.size (cc0_transform_2 i) (hinb0_2 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512x1 : Shape := ⟨2, ![512, 1]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512x1, .f32⟩
  | .hbm, ⟨3, _⟩ => ⟨S_, .f32⟩
  | .hbm, ⟨4, _⟩ => ⟨S_, .f32⟩
  | .hbm, ⟨5, _⟩ => ⟨S32768x512, .f32⟩
  | .hbm, ⟨6, _⟩ => ⟨S32768x512, .i1⟩
  | .hbm, ⟨7, _⟩ => ⟨S_, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x512, .f32⟩
  | .hbm, ⟨15, _⟩ => ⟨S32768x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .i1⟩
  | .hbm, ⟨21, _⟩ => ⟨S_, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S32768x512, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S32768x512, .f32⟩
  | .hbm, ⟨43, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_cst_6 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  bcast_S_S32768x512 : S_.BroadcastsInDim S32768x512 (![] : Fin 0 → Fin S32768x512.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  dot_S32768x512_S512x512_S32768x512_1_1_0_0_n_n_wf : DotDims.WF S32768x512 S512x512 S32768x512 [1] [1] [0] [0] [] []

variable [Facts₀]

def dot_S32768x512_S512x512_S32768x512_1_1_0_0_n_n : DotDims S32768x512 S512x512 S32768x512 where
  lhsContracting := [1]
  rhsContracting := [1]
  lhsNonContracting := [0]
  rhsNonContracting := [0]
  lhsBatch := []
  rhsBatch := []
  wf := dot_S32768x512_S512x512_S32768x512_1_1_0_0_n_n_wf

class Facts : Prop extends Facts₀ where

variable [Facts]
-- ==== Proof.Scalars.lean ====
/-
  Facts about extended reals used by this certificate, with no program in sight.

  Both programs binarize with `where(v ≥ 0, 1, -1)` and scale by `2 ^ round(clip(s, -8, 0))`.
  Here: the three f32 literals read as reals; the hard sign `hardSign v` (always the real 1 or -1);
  the straight-through form `t + (h - t)`, which is `h` whenever `t` is a finite real (and the
  hyperbolic tangent of any extended real is one); the clipped shift `clip s`, a real in [-8, 0]
  for EVERY extended real `s`; the scale `scale s = 2 ^ roundeven (clip s)`, hence a real; and the
  one algebraic law joining the two programs: a real factor moves from outside a finite sum of
  products of reals to inside each term.
-/
import Idealize.ShloMosaic.PureOps.Ideal.Laws
import Idealize.ShloMosaic.Lib.IdealHost

noncomputable section

open scoped BigOperators

namespace Cert.BinLinear

open Idealize.ShloMosaic

/-! ## Literals -/

/-- The f32 pattern `0xBF800000` is the real minus one. -/
theorem neg_one_f32 : Ideal.ofBits .f32 0xBF800000#32 = ((-(1 : ℝ) : ℝ) : EReal) := by
  simp [Ideal.ofBits, Ideal.ieee, -EReal.coe_mul, -EReal.coe_neg]; norm_num

/-- The f32 pattern `0x40000000` is the real two. -/
theorem two_f32 : Ideal.ofBits .f32 0x40000000#32 = ((2 : ℝ) : EReal) := by
  simp [Ideal.ofBits, Ideal.ieee, -EReal.coe_mul, -EReal.coe_neg]; norm_num

/-- The f32 pattern `0xC1000000` is the real minus eight. -/
theorem neg_eight_f32 : Ideal.ofBits .f32 0xC1000000#32 = ((-(8 : ℝ) : ℝ) : EReal) := by
  simp [Ideal.ofBits, Ideal.ieee, -EReal.coe_mul, -EReal.coe_neg]; norm_num

/-- Negating the literal one gives the literal minus one. -/
theorem neg_one_lit : -(Ideal.ofBits .f32 0x3F800000#32) = Ideal.ofBits .f32 0xBF800000#32 := by
  rw [Ideal.ofBits_one_f32, neg_one_f32, EReal.coe_neg, EReal.coe_one]

/-! ## The hard sign -/

/-- `where(v ≥ 0, 1, -1)`, spelt with the literals both programs print. -/
def hardSign (v : EReal) : EReal :=
  Scalar.select (Ideal.cmp .oge v (Ideal.ofBits .f32 0x00000000#32))
    (Ideal.ofBits .f32 0x3F800000#32) (Ideal.ofBits .f32 0xBF800000#32)

/-- The hard sign is a finite real (1 or -1). -/
theorem hardSign_real (v : EReal) : ∃ σ : ℝ, hardSign v = σ := by
  unfold hardSign Scalar.select
  split
  · exact ⟨1, by rw [Ideal.ofBits_one_f32, EReal.coe_one]⟩
  · exact ⟨-1, neg_one_f32⟩

/-! ## The straight-through form -/

/-- `t + (r - t) = r` on the extended reals when `t` is a finite real, whatever `r` is. -/
theorem add_sub_cancel_real (t : ℝ) (r : EReal) : (t : EReal) + (r - (t : EReal)) = r := by
  induction r using EReal.rec with
  | bot => simp
  | coe r => rw [← EReal.coe_sub, ← EReal.coe_add]; congr 1; ring
  | top => simp

/-- The hyperbolic tangent of any extended real is a finite real. -/
theorem tanh_real (v : EReal) : ∃ t : ℝ, Ideal.tanh v = t := by
  induction v using EReal.rec with
  | bot => exact ⟨-1, (show Ideal.tanh ⊥ = (-1 : EReal) from rfl).trans (by simp)⟩
  | coe r => exact ⟨Real.tanh r, rfl⟩
  | top => exact ⟨1, (show Ideal.tanh ⊤ = (1 : EReal) from rfl).trans (by simp)⟩

/-- The reference's binarization `tanh v + (where(v ≥ 0, 1, -(1)) - tanh v)` is the hard sign. -/
theorem straight_sign (v : EReal) :
    Ideal.tanh v + (Scalar.select (Ideal.cmp .oge v (Ideal.ofBits .f32 0x00000000#32))
      (Ideal.ofBits .f32 0x3F800000#32) (-(Ideal.ofBits .f32 0x3F800000#32)) - Ideal.tanh v) = hardSign v := by
  obtain ⟨t, ht⟩ := tanh_real v
  rw [ht, add_sub_cancel_real, neg_one_lit]
  rfl

/-! ## The scale -/

/-- `clip(s, -8, 0) = min 0 (max (-8) s)`. -/
def clip (s : EReal) : EReal :=
  min (Ideal.ofBits .f32 0x00000000#32) (max (Ideal.ofBits .f32 0xC1000000#32) s)

/-- The clipped shift lies in [-8, 0], so it is a finite real for every extended real `s`. -/
theorem clip_real (s : EReal) : ∃ c : ℝ, clip s = c := by
  unfold clip
  rw [Ideal.ofBits_zero_f32, neg_eight_f32]
  have h1 : min (0 : EReal) (max (((-(8 : ℝ) : ℝ)) : EReal) s) ≠ ⊤ :=
    ne_of_lt (lt_of_le_of_lt (min_le_left _ _) EReal.zero_lt_top)
  have h2 : min (0 : EReal) (max (((-(8 : ℝ) : ℝ)) : EReal) s) ≠ ⊥ :=
    ne_of_gt (lt_of_lt_of_le (EReal.bot_lt_coe _)
      (le_min (EReal.coe_nonpos.mpr (by norm_num)) (le_max_left _ _)))
  exact ⟨_, (EReal.coe_toReal h1 h2).symm⟩

/-- `2 ^ roundeven (clip s)`. -/
def scale (s : EReal) : EReal :=
  Ideal.pow (Ideal.ofBits .f32 0x40000000#32) (Ideal.liftRound Ideal.roundHalfEven (clip s))

/-- The scale is a finite real. -/
theorem scale_real (s : EReal) : ∃ π : ℝ, scale s = π := by
  obtain ⟨c, hc⟩ := clip_real s
  unfold scale
  rw [hc, two_f32]
  exact ⟨_, rfl⟩

/-- The reference's exponent `c + (roundeven c - c)` at `c = clip s` is `roundeven c`. -/
theorem straight_round (s : EReal) :
    clip s + (Ideal.liftRound Ideal.roundHalfEven (clip s) - clip s) = Ideal.liftRound Ideal.roundHalfEven (clip s) := by
  obtain ⟨c, hc⟩ := clip_real s
  rw [hc]
  exact add_sub_cancel_real c _

/-! ## Moving a real factor into a finite sum -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For finite reals, `(∑ₖ Aₖ · Bₖ) · P = ∑ₖ Aₖ · (Bₖ · P)`. (On the extended reals at large this fails: a product
    does not distribute over `⊤ + ⊥`.) -/
theorem sum_mul_scale {n : ℕ} (A B : Fin n → EReal) (P : EReal) (hA : ∀ k, ∃ a : ℝ, A k = a)
    (hB : ∀ k, ∃ b : ℝ, B k = b) (hP : ∃ p : ℝ, P = p) :
    (∑ k, A k * B k) * P = ∑ k, A k * (B k * P) := by
  choose a ha using hA
  choose b hb using hB
  obtain ⟨p, rfl⟩ := hP
  simp only [ha, hb, ← EReal.coe_mul]
  rw [← coe_sum, ← coe_sum, ← EReal.coe_mul, Finset.sum_mul]
  exact congrArg _ (Finset.sum_congr rfl fun k _ => mul_assoc _ _ _)

end Cert.BinLinear

end
-- ==== Proof.Spec.lean ====
/-
  The specification: the binarized linear layer as ONE function of the four argument arrays.

  For tokens `x : [32768, 512]`, weights `w : [512 (out), 512 (in)]`, a threshold column `th : [512, 1]`
  and a scalar shift `s`, the result at (n, o) is

      ∑ₖ  sign(x[n, k]) · ( sign(w[o, k] - th[o, 0]) · 2 ^ roundeven(clip(s, -8, 0)) )

  with the scale inside each term, as the kernel folds it into the weights; that the reference's
  "sum first, scale after" is the same number is `sum_mul_scale`.
-/
import proofs.«182198_j79714593014187_2_alg».proof.Proof.Scalars
import Idealize.ShloMosaic.Lib.ValueIdx

noncomputable section

open scoped BigOperators

namespace Cert.BinLinear

open Idealize.ShloMosaic Idealize.ShloMosaic.ValueIdx

/-- The binarized weight at (o, k), scaled: `sign(w[o, k] - th[o, 0]) · scale s`. -/
def wq (w : (⟨2, ![512, 512]⟩ : Shape).Idx → EReal) (th : (⟨2, ![512, 1]⟩ : Shape).Idx → EReal)
    (s : (⟨0, ![]⟩ : Shape).Idx → EReal) (o k : Fin 512) : EReal :=
  hardSign (w (ix2 o k) - th (ix2 o (0 : Fin 1))) * scale (s ix0)

/-- The layer's result at (n, o): the signs of row `n` of `x` against the scaled signs of row `o` of `w - th`. -/
def G (x : (⟨2, ![32768, 512]⟩ : Shape).Idx → EReal) (w : (⟨2, ![512, 512]⟩ : Shape).Idx → EReal)
    (th : (⟨2, ![512, 1]⟩ : Shape).Idx → EReal) (s : (⟨0, ![]⟩ : Shape).Idx → EReal) :
    (⟨2, ![32768, 512]⟩ : Shape).Idx → EReal :=
  fun i => ∑ k : Fin 512, hardSign (x (ix2 (i 0 : Fin 32768) k)) * wq w th s (i 1 : Fin 512) k

end Cert.BinLinear

end
-- ==== Proof.RefSpec.lean ====
/-
  The reference computes the specification.

  Read one operation at a time, the reference's result at (n, o) is
  `(∑ₖ xq[n, k] · wq[o, k]) · 2 ^ (c + (roundeven c - c))` with `c = clip(s, -8, 0)`, where
  `xq = tanh x + (sign x - tanh x)` and `wq = tanh d + (sign d - tanh d)`, `d = w - th`. The hyperbolic
  tangents cancel (they are finite), the exponent is `roundeven c` (`c` is finite), and the finite real
  scale moves inside the sum: the result is `G`.
-/
import proofs.«182198_j79714593014187_2_alg».proof.Proof.Spec
import proofs.«182198_j79714593014187_2_alg».proof.Proof.Gen.ReferenceIdeal.Read

noncomputable section

open scoped BigOperators

namespace Cert.BinLinear.Ref

open Cert.ReferenceIdeal Cert.ReferenceIdeal.Read Cert.BinLinear
open Idealize.ShloMosaic Idealize.ShloMosaic.ValueIdx

/-- The reference's binarized token entry is the hard sign of the entry. -/
theorem xq_apply (x : (⟨S32768x512, .f32⟩ : BufTy).Contents (Elt Ideal)) (j : S32768x512.Idx) :
    val_main_v8 (F := Ideal) x j = hardSign (x j) := by
  rw [val_main_v8_apply, val_main_v7_apply, val_main_v6_apply, val_main_v5_apply, val_main_v1_apply,
    val_main_v0_apply, val_main_cst_apply, val_main_v2_apply, val_main_cst_0_apply, val_main_v4_apply,
    val_main_v3_apply, val_main_cst_1_apply]
  exact straight_sign (x j)

/-- The reference's binarized weight entry is the hard sign of weight minus its row's threshold. -/
theorem wsign_apply (w : (⟨S512x512, .f32⟩ : BufTy).Contents (Elt Ideal)) (th : (⟨S512x1, .f32⟩ : BufTy).Contents (Elt Ideal))
    (j : S512x512.Idx) :
    val_main_v19 (F := Ideal) w th j = hardSign (w j - th (idx_main_v9 j)) := by
  rw [val_main_v19_apply, val_main_v18_apply, val_main_v17_apply, val_main_v16_apply, val_main_v12_apply,
    val_main_v11_apply, val_main_cst_2_apply, val_main_v13_apply, val_main_cst_3_apply, val_main_v15_apply,
    val_main_v14_apply, val_main_cst_4_apply, val_main_v10_apply, val_main_v9_apply]
  exact straight_sign _

/-- The reference's scalar scale is `scale s`: its exponent `c + (roundeven c - c)` is `roundeven c`. -/
theorem scale_apply (s : (⟨S_, .f32⟩ : BufTy).Contents (Elt Ideal)) (j : S_.Idx) :
    val_main_v25 (F := Ideal) s j = scale (s j) := by
  rw [val_main_v25_apply, val_main_cst_7_apply, val_main_v24_apply, val_main_v23_apply, val_main_v22_apply,
    val_main_v21_apply, val_main_call2_v2_apply, val_main_cst_6_apply, val_main_call2_v1_apply,
    val_main_call2_v0_apply, val_main_cst_5_apply]
  show Ideal.pow _ (clip (s j) + (Ideal.liftRound Ideal.roundHalfEven (clip (s j)) - clip (s j))) = scale (s j)
  rw [straight_round]
  rfl

/-- The reference's result is the specification. -/
theorem result_eq (x : (⟨S32768x512, .f32⟩ : BufTy).Contents (Elt Ideal)) (w : (⟨S512x512, .f32⟩ : BufTy).Contents (Elt Ideal))
    (th : (⟨S512x1, .f32⟩ : BufTy).Contents (Elt Ideal)) (s : (⟨S_, .f32⟩ : BufTy).Contents (Elt Ideal)) :
    val_main_v27 (F := Ideal) x w th s = G x w th s := by
  funext i
  rw [val_main_v27_apply, val_main_v20_apply, val_main_v26_apply, scale_apply]
  show (∑ k : Fin 512, val_main_v8 (F := Ideal) x (lidx_main_v20 i k) * val_main_v19 (F := Ideal) w th (ridx_main_v20 i k))
      * scale (s (idx_main_v26 i)) = _
  simp only [xq_apply, wsign_apply]
  refine (sum_mul_scale (fun k => hardSign (x (lidx_main_v20 i k)))
    (fun k => hardSign (w (ridx_main_v20 i k) - th (idx_main_v9 (ridx_main_v20 i k)))) _
    (fun k => hardSign_real _) (fun k => hardSign_real _) (scale_real _)).trans ?_
  unfold G wq
  refine Finset.sum_congr rfl fun k _ => ?_
  have e1 : lidx_main_v20 i k = ix2 (i 0 : Fin 32768) k :=
    funext fun a => by match a with | ⟨0, _⟩ => rfl | ⟨1, _⟩ => rfl
  have e2 : ridx_main_v20 i k = ix2 (i 1 : Fin 512) k :=
    funext fun a => by match a with | ⟨0, _⟩ => rfl | ⟨1, _⟩ => rfl
  have e3 : idx_main_v9 (ix2 (i 1 : Fin 512) k) = ix2 (i 1 : Fin 512) (0 : Fin 1) :=
    funext fun a => by match a with | ⟨0, _⟩ => rfl | ⟨1, _⟩ => rfl
  have e4 : idx_main_v26 i = ix0 := funext fun a => a.elim0
  rw [e1, e2, e3, e4]
  rfl

end Cert.BinLinear.Ref

end
-- ==== Proof.KernelHost.lean ====
/-
  The kernel's second operand, computed on the host before the launch.

  Before the region the host binarizes `w - th` (the threshold column broadcast along each row),
  transposes the signs to [in, out], multiplies by the scalar `2 ^ roundeven(clip(s, -8, 0))` and
  changes format. So the array the region finds at (k, o) is `wq w th s o k`: the scaled sign of
  `w[o, k] - th[o, 0]`.
-/
import proofs.«182198_j79714593014187_2_alg».proof.Proof.Spec
import proofs.«182198_j79714593014187_2_alg».proof.Proof.Gen.KernelIdeal.Frame
import Idealize.ShloMosaic.Lib.StableHlo.Run
import Idealize.ShloMosaic.Lib.Pipeline.Value
import Idealize.ShloMosaic.Lib.IdealHost

noncomputable section

namespace Cert.BinLinear.Kern

open Cert.KernelIdeal Cert.KernelIdeal.Gen Cert.BinLinear
open Idealize.ShloMosaic Idealize.ShloMosaic.TcCoe Idealize.SL.Sem Idealize.ShloMosaic.StableHlo
open Idealize.ShloMosaic.ValueIdx

/-- The host operations before the launch, as one term of the weight, threshold and shift arrays. -/
def hostWq (w : FVec Ideal S512x512 .f32) (th : FVec Ideal S512x1 .f32) (s : FVec Ideal S_ .f32) :
    FVec Ideal S512x512 .bf16 :=
  truncf .bf16
    (mulf
      (transpose S512x512 [1, 0]
        (id (select
          (cmpf .oge (subf w (broadcastInDim S512x512 ![0, 1] bcast_S512x1_S512x512_0_1 th))
            (broadcastInDim S512x512 ![] bcast_S_S512x512 (constant (F := Ideal) S_ .f32 0x00000000#32)))
          (broadcastInDim S512x512 ![] bcast_S_S512x512 (constant (F := Ideal) S_ .f32 0x3F800000#32))
          (broadcastInDim S512x512 ![] bcast_S_S512x512 (constant (F := Ideal) S_ .f32 0xBF800000#32))))
        transposes_S512x512_S512x512_1_0)
      (broadcastInDim S512x512 ![] bcast_S_S512x512
        (Host.powf (constant (F := Ideal) S_ .f32 0x40000000#32)
          (Host.roundeven
            (minimumf (id (constant (F := Ideal) S_ .f32 0x00000000#32))
              (maximumf (id (constant (F := Ideal) S_ .f32 0xC1000000#32)) s))))))
    bitsLt_bf16_f32

/-- Read at (k, o): the scaled sign of `w[o, k] - th[o, 0]`. -/
theorem hostWq_apply (w : FVec Ideal S512x512 .f32) (th : FVec Ideal S512x1 .f32) (s : FVec Ideal S_ .f32)
    (k o : Fin 512) : hostWq w th s (ix2 k o) = wq w th s o k := by
  unfold hostWq
  rw [truncf_apply, mulf_apply, broadcastInDim_scalar_apply,
    transpose_apply [1, 0] _ transposes_S512x512_S512x512_1_0 (ix2 k o) (ix2 o k)
      (fun b => by match b with | ⟨0, _⟩ => rfl | ⟨1, _⟩ => rfl)]
  show Scalar.select (FloatOps.cmpf .oge
      (FloatOps.subf (w (ix2 o k)) (broadcastInDim S512x512 ![0, 1] bcast_S512x1_S512x512_0_1 th (ix2 o k)))
      (broadcastInDim S512x512 ![] bcast_S_S512x512 (constant (F := Ideal) S_ .f32 0x00000000#32) (ix2 o k)))
      (broadcastInDim S512x512 ![] bcast_S_S512x512 (constant (F := Ideal) S_ .f32 0x3F800000#32) (ix2 o k))
      (broadcastInDim S512x512 ![] bcast_S_S512x512 (constant (F := Ideal) S_ .f32 0xBF800000#32) (ix2 o k))
    * _ = _
  rw [broadcastInDim_scalar_apply, broadcastInDim_scalar_apply, broadcastInDim_scalar_apply,
    broadcastInDim_apply _ bcast_S512x1_S512x512_0_1 th (ix2 o k) (ix2 o (0 : Fin 1)) (fun a => match a with
      | ⟨0, _⟩ => by show o.val = if (512 : Nat) = 1 then 0 else o.val; rw [if_neg (by decide)]
      | ⟨1, _⟩ => by show 0 = if (1 : Nat) = 1 then 0 else k.val; rw [if_pos rfl])]
  rfl

variable (m : (ℓ : Loc nD τ sig) → Buf (Elt Ideal) ℓ)

/-- The region finds its second operand at the host term of the argument arrays as launched. -/
theorem V_wq (c : Dev nD) :
    (V m c main_v12 : S512x512.Idx → Elt Ideal .bf16)
      = hostWq (m ((c : Thread nD τ).loc main_arg1)) (m ((c : Thread nD τ).loc main_arg2)) (m ((c : Thread nD τ).loc main_arg3)) := by
  dsimp only [V]
  simp only [hostOps0, hostOps0_1, hostOps0_2, hostOps0_3, hostOps0_4, hostOps0_5, List.flatten_cons, List.flatten_nil,
    List.append_nil, List.cons_append, List.nil_append]
  after_results
  rfl

end Cert.BinLinear.Kern

end
-- ==== Proof.KernelValue.lean ====
/-
  The kernel computes the specification.

  Grid point `t` of 8 loads rows `4096 t … 4096 t + 4095` of `x` and the whole [512 (in), 512 (out)] host-made
  operand, binarizes the rows and multiplies: its block entry (p, o) is
  `∑ₖ sign(x[4096 t + p, k]) · wq[o, k]`, which is `G` at row `4096 t + p`. The 8 row blocks tile the
  [32768, 512] result, so the result array ends at `G` of the arguments.
-/
import proofs.«182198_j79714593014187_2_alg».proof.Proof.KernelHost
import proofs.«182198_j79714593014187_2_alg».proof.Proof.Gen.KernelIdeal.Value
import Idealize.ShloMosaic.Lib.Pipeline.Value
import Idealize.ShloMosaic.Lib.ValueIdx
import Idealize.ShloMosaic.PureOps.Ideal.Laws

noncomputable section

open scoped BigOperators

namespace Cert.BinLinear.Kern

open Cert.KernelIdeal Cert.KernelIdeal.Gen Cert.BinLinear
open Idealize.ShloMosaic Idealize.ShloMosaic.TcCoe Idealize.SL.Sem Idealize.ShloMosaic.ValueIdx
open Idealize.ShloMosaic.Pipeline (Dat)

/-! ## The body's matrix product at an index -/

theorem lhs_row (j : S4096x512.Idx) (q : dot_S4096x512_S512x512_S4096x512_1_0_0_1_n_n.contr.Idx) :
    (dot_S4096x512_S512x512_S4096x512_1_0_0_1_n_n.lhsIdx j q 0).val = (j 0).val := by
  unfold DotDims.lhsIdx
  rw [dif_neg (show ¬(0 : Fin S4096x512.rank) ∈ dot_S4096x512_S512x512_S4096x512_1_0_0_1_n_n.lhsBatch by decide),
    dif_pos (show (0 : Fin S4096x512.rank) ∈ dot_S4096x512_S512x512_S4096x512_1_0_0_1_n_n.lhsNonContracting by decide)]
  rfl
theorem lhs_col (j : S4096x512.Idx) (q : dot_S4096x512_S512x512_S4096x512_1_0_0_1_n_n.contr.Idx) :
    (dot_S4096x512_S512x512_S4096x512_1_0_0_1_n_n.lhsIdx j q 1).val = (q ⟨0, by decide⟩).val :=
  dot_S4096x512_S512x512_S4096x512_1_0_0_1_n_n.lhsIdx_val_of_single rfl j q
theorem rhs_row (j : S4096x512.Idx) (q : dot_S4096x512_S512x512_S4096x512_1_0_0_1_n_n.contr.Idx) :
    (dot_S4096x512_S512x512_S4096x512_1_0_0_1_n_n.rhsIdx j q 0).val = (q ⟨0, by decide⟩).val :=
  dot_S4096x512_S512x512_S4096x512_1_0_0_1_n_n.rhsIdx_val_of_single rfl j q
theorem rhs_col (j : S4096x512.Idx) (q : dot_S4096x512_S512x512_S4096x512_1_0_0_1_n_n.contr.Idx) :
    (dot_S4096x512_S512x512_S4096x512_1_0_0_1_n_n.rhsIdx j q 1).val = (j 1).val := by
  unfold DotDims.rhsIdx
  rw [dif_neg (show ¬(1 : Fin S512x512.rank) ∈ dot_S4096x512_S512x512_S4096x512_1_0_0_1_n_n.rhsBatch by decide),
    dif_pos (show (1 : Fin S512x512.rank) ∈ dot_S4096x512_S512x512_S4096x512_1_0_0_1_n_n.rhsNonContracting by decide)]
  rfl

/-- The body's stored value at (p, o): the signs of row `p` of the token block against column `o` of the second
    operand, summed over the 512 input features. -/
theorem pay_apply (x0 : Vec Ideal S4096x512 .f32) (x1 : Vec Ideal S512x512 .bf16) (p : Fin 4096) (o : Fin 512) :
    k0_pay1 x0 x1 (ix2 p o) = ∑ k : Fin 512, hardSign (x0 (ix2 p k)) * x1 (ix2 k o) := by
  unfold k0_pay1
  show FloatOps.matmul dot_S4096x512_S512x512_S4096x512_1_0_0_1_n_n none _ _ (constant S4096x512 .f32 0x00000000#32) (ix2 p o) = _
  rw [Ideal.matmul_constant_zero_apply,
    ← Equiv.sum_comp (contrEquiv1 dot_S4096x512_S512x512_S4096x512_1_0_0_1_n_n 512 rfl rfl).symm]
  refine Finset.sum_congr rfl fun k _ => ?_
  have hk := contrEquiv1_symm_val dot_S4096x512_S512x512_S4096x512_1_0_0_1_n_n 512 rfl rfl k
  have el : dot_S4096x512_S512x512_S4096x512_1_0_0_1_n_n.lhsIdx (ix2 p o) ((contrEquiv1 dot_S4096x512_S512x512_S4096x512_1_0_0_1_n_n 512 rfl rfl).symm k) = ix2 p k :=
    funext fun a => Fin.ext (by
      match a with
      | ⟨0, _⟩ => exact lhs_row _ _
      | ⟨1, _⟩ => exact (lhs_col _ _).trans hk)
  have er : dot_S4096x512_S512x512_S4096x512_1_0_0_1_n_n.rhsIdx (ix2 p o) ((contrEquiv1 dot_S4096x512_S512x512_S4096x512_1_0_0_1_n_n 512 rfl rfl).symm k) = ix2 k o :=
    funext fun a => Fin.ext (by
      match a with
      | ⟨0, _⟩ => exact (rhs_row _ _).trans hk
      | ⟨1, _⟩ => exact rhs_col _ _)
  rw [el, er, shapeCast_self]
  rfl

/-- The same at any index of the block. -/
theorem pay_apply' (x0 : Vec Ideal S4096x512 .f32) (x1 : Vec Ideal S512x512 .bf16) (j : S4096x512.Idx) :
    k0_pay1 x0 x1 j = ∑ k : Fin 512, hardSign (x0 (ix2 (j 0 : Fin 4096) k)) * x1 (ix2 k (j 1 : Fin 512)) :=
  (congrArg (k0_pay1 x0 x1) (eq_ix2 j)).trans (pay_apply x0 x1 (j 0) (j 1))

/-! ## The windows' blocks -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the token window and the result window move along the rows with the
    point, the second operand's window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The token window's block at point `t` is rows `4096 t …` of the argument. -/
theorem xblk_apply (c : Dev nD) (t : Fin cfg0.N) (y : S4096x512.Idx) (i : S32768x512.Idx)
    (h0 : (i 0).val = t.val * 4096 + (y 0).val) (h1 : (i 1).val = (y 1).val) :
    (iblk m c 0 t : Vec Ideal S4096x512 .f32) y
      = (m ((c : Thread nD τ).loc main_arg0) : S32768x512.Idx → Elt Ideal .f32) i := by
  obtain ⟨e0, e1, -⟩ := idx_facts t
  unfold iblk
  rw [View.read_apply]
  show V m c main_arg0 _ = _
  refine (congrFun (V_main_arg0 m c) _).trans
    (congrArg (m ((c : Thread nD τ).loc main_arg0) : S32768x512.Idx → Elt Ideal .f32) (funext fun a => Fin.ext ?_))
  match a with
  | ⟨0, _⟩ => show win0_0.index t (0 : Fin 2) * 4096 + 1 * (y 0).val = (i 0).val; omega
  | ⟨1, _⟩ => show win0_0.index t (1 : Fin 2) * 512 + 1 * (y 1).val = (i 1).val; omega

/-- The second operand's window at every point is the whole host-made array. -/
theorem wblk_apply (c : Dev nD) (t : Fin cfg0.N) (y : S512x512.Idx) :
    (iblk m c 1 t : Vec Ideal S512x512 .bf16) y = (V m c main_v12 : S512x512.Idx → Elt Ideal .bf16) y := by
  obtain ⟨-, -, e2, e3, -⟩ := idx_facts t
  unfold iblk
  rw [View.read_apply]
  show V m c main_v12 _ = _
  refine congrArg (V m c main_v12 : S512x512.Idx → Elt Ideal .bf16) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-! ## The result array -/

/-- The specification at the argument arrays as launched. -/
abbrev Gm (c : Dev nD) : Buf (Elt Ideal) ((c : Thread nD τ).loc main_v13) :=
  G (m ((c : Thread nD τ).loc main_arg0)) (m ((c : Thread nD τ).loc main_arg1))
    (m ((c : Thread nD τ).loc main_arg2)) (m ((c : Thread nD τ).loc main_arg3))

/-- The body's value at block index `j` of point `t` is the specification at row `4096 t + j₀`, column `j₁`. -/
theorem point_value (c : Dev nD) (t : Fin cfg0.N) (j : S4096x512.Idx) (i : S32768x512.Idx)
    (h0 : (i 0).val = t.val * 4096 + (j 0).val) (h1 : (i 1).val = (j 1).val) :
    k0_pay1 (iblk m c 0 t) (iblk m c 1 t) j = Gm m c i := by
  refine (pay_apply' (iblk m c 0 t) (iblk m c 1 t) j).trans ?_
  show _ = G _ _ _ _ i
  unfold G
  refine Finset.sum_congr rfl fun k _ => ?_
  have ho : (i 1 : Fin 512) = (j 1 : Fin 512) := Fin.ext h1
  rw [xblk_apply m c t (ix2 (j 0 : Fin 4096) k) (ix2 (i 0 : Fin 32768) k) h0 rfl,
    wblk_apply m c t (ix2 k (j 1 : Fin 512)), V_wq]
  exact congrArg (fun z : EReal => hardSign _ * z)
    ((hostWq_apply _ _ _ k (j 1 : Fin 512)).trans (congrArg (fun o : Fin 512 => wq _ _ _ o k) ho.symm))

/-- What point `t` writes back is block `t` of the specification. -/
theorem flushed_eq (c : Dev nD) (t : Fin cfg0.N) :
    (dats m 0 c).flushed 2 t = ((cfg0.win 2).blk t).view.read (Elt Ideal) (Gm m c) := by
  rw [Cert.KernelIdeal.Value.flushed2]
  unfold out0_2
  rw [View.canon_unit_zero hz]
  simp only [View.ld_unit_zero (S := S4096x512) hz, View.ld_unit_zero (S := S512x512) hz]
  obtain ⟨-, -, -, -, e4, e5⟩ := idx_facts t
  funext j
  show k0_pay1 (iblk m c 0 t) (iblk m c 1 t) j = Gm m c (((cfg0.win 2).blk t).view.emb j)
  exact point_value m c t j _
    (by show win0_2.index t (0 : Fin 2) * 4096 + 1 * (j 0).val = t.val * 4096 + (j 0).val; omega)
    (by show win0_2.index t (1 : Fin 2) * 512 + 1 * (j 1).val = (j 1).val; omega)

/-- An index of the array is in point `t`'s block iff each coordinate is in the block's range on its axis. -/
theorem mem_blk (t : Fin cfg0.N) (i : S32768x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v13).slice (win0_2.rect t)).set ↔ _
  rw [View.set_slice_whole, Rect.mem_set_unit]
  exact Iff.rfl

/-- Row `r` is in the block of point `r / 4096`: the 8 row blocks cover the array. -/
theorem cover (i : S32768x512.Idx) :
    ∃ t : Fin cfg0.N, (cfg0.win 2).flush t = true ∧ i ∈ ((cfg0.win 2).blk t).view.set := by
  have hi0 : (i 0).val < 32768 := (i 0).isLt
  have hi1 : (i 1).val < 512 := (i 1).isLt
  have hN : cfg0.N = 8 := N_0
  obtain ⟨t, ht⟩ : ∃ t : Fin cfg0.N, t.val = (i 0).val / 4096 := ⟨⟨(i 0).val / 4096, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 512 ≤ (i 1).val ∧ (i 1).val < win0_2.index t (1 : Fin 2) * 512 + 512
    omega

/-- The result array after the run is the specification of the argument arrays. -/
theorem final (c : Dev nD) : (dats m 0 c).arrAt 2 cfg0.N = Gm m c :=
  (dats m 0 c).arrAt_eq_of_cover 2 (Gm m c) (fun t _ => flushed_eq m c t) cover

/-- The kernel's run: the result at the specification, the arguments unchanged. -/
theorem run : θ_run defs (onTc (τ := τ) (main (F := Ideal))) ⟨m, fun _ => 0, ρ⟩ fun r => ∀ c : Dev nD,
      r.2.mem ((c : Thread nD τ).loc main_v13) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.BinLinear.Kern

end
-- ==== Proof.lean ====
/-
  A binarized linear layer: tokens `x : [32768, 512]`, weights `w : [512, 512]` (out × in), a threshold column
  `th : [512, 1]` and a scalar shift `s`; the result at (n, o) is
  `∑ₖ sign(x[n, k]) · sign(w[o, k] - th[o, 0]) · 2 ^ roundeven(clip(s, -8, 0))`, with `sign v = 1` for `v ≥ 0`
  and `-1` otherwise.

  The kernel folds the scale into the binarized, transposed weights on the host, then, per block of 4096 rows,
  binarizes the rows and takes one matrix product against the whole weight operand. The reference binarizes by the
  straight-through form `tanh v + (sign v - tanh v)`, contracts `x`'s signs against `w`'s, and multiplies the
  [32768, 512] product by `2 ^ (c + (roundeven c - c))`, `c = clip(s, -8, 0)`.

  On the extended reals the two agree: a hyperbolic tangent is always a finite real, so the straight-through form
  IS the hard sign; `c` lies in [-8, 0] whatever `s` is, so the exponent is `roundeven c` and the scale a finite
  real; and a finite real factor moves from outside a finite sum of products of ±1 to inside each term. None of
  this uses that the inputs are finite, so the precondition is never opened.

  Modules: Scalars (the facts on the extended reals), Spec (the result as one function `G`), RefSpec (the
  reference's run read operation by operation is `G`), KernelHost (the weight operand the region finds),
  KernelValue (each grid point writes its block of `G`; the blocks tile the result). The three frames are the
  generated ones; the idealization rewrote nothing, so `preserves` is trivial.
-/
import proofs.«182198_j79714593014187_2_alg».proof.Defs
import proofs.«182198_j79714593014187_2_alg».proof.Proof.Gen.Kernel
import proofs.«182198_j79714593014187_2_alg».proof.Proof.Gen.Kernel.Skeleton
import proofs.«182198_j79714593014187_2_alg».proof.Proof.Gen.Kernel.Launch
import proofs.«182198_j79714593014187_2_alg».proof.Proof.Gen.Kernel.Points
import proofs.«182198_j79714593014187_2_alg».proof.Proof.Gen.Kernel.Frame
import proofs.«182198_j79714593014187_2_alg».proof.Proof.Gen.KernelIdeal
import proofs.«182198_j79714593014187_2_alg».proof.Proof.Gen.KernelIdeal.Skeleton
import proofs.«182198_j79714593014187_2_alg».proof.Proof.Gen.KernelIdeal.Launch
import proofs.«182198_j79714593014187_2_alg».proof.Proof.Gen.KernelIdeal.Points
import proofs.«182198_j79714593014187_2_alg».proof.Proof.Gen.KernelIdeal.Frame
import proofs.«182198_j79714593014187_2_alg».proof.Proof.Gen.ReferenceIdeal
import proofs.«182198_j79714593014187_2_alg».proof.Proof.Gen.KernelIdeal.Value
import proofs.«182198_j79714593014187_2_alg».proof.Proof.Gen.ReferenceIdeal.Run
import proofs.«182198_j79714593014187_2_alg».proof.Proof.Gen.ReferenceIdeal.Read
import proofs.«182198_j79714593014187_2_alg».proof.Proof.Gen.Pre_finite_inputs
import proofs.«182198_j79714593014187_2_alg».proof.Proof.RefSpec
import proofs.«182198_j79714593014187_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the specification `G` of the (agreeing) arguments. -/
theorem algebraic : Cert.algebraic_KernelIdeal_ReferenceIdeal := by
  intro m ρ m' ρ' _ hagree
  refine ⟨fun c => Cert.BinLinear.Kern.Gm m c, Cert.BinLinear.Kern.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v27_eq _ _ _ _).trans (Cert.BinLinear.Ref.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
